-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S2000x128 : Shape := ⟨2, ![2000, 128]⟩
abbrev S1x128 : Shape := ⟨2, ![1, 128]⟩

abbrev nBuf : Space → Nat
  | .hbm => 26
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S128x128, .bf16⟩
  | .hbm, ⟨24, _⟩ => ⟨S128x128, .bf16⟩
  | .hbm, ⟨25, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S2000x128, .f32⟩
  | .local _ .vmem, ⟨9, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.BlockIndex.lean ====
import proofs.«149185_j19731079758624_1_alg».proof.Proof.Gen.KernelIdeal.Frame

/-!
# Where the 50 blocks sit

The grid has 50 points.  At point `t` the features' and the aggregate's windows and the result's window are all at
row block `t` (2000 rows each) and column block 0; the weights' and biases' windows are their whole arrays.  The
result's 50 row blocks tile its 100000 rows: row `r` is in the block of the point at row block `r / 2000`.
-/

set_option maxRecDepth 16384

noncomputable section

namespace Gin.Blocks

open Cert.KernelIdeal Cert.KernelIdeal.Gen Idealize.ShloMosaic Idealize.ShloMosaic.TcCoe Idealize.SL.Sem

theorem zeros2 : (![0, 0] : Fin 2 → Nat) = fun _ => 0 := funext fun a => by fin_cases a <;> rfl
theorem zeros1 : (![0] : Fin 1 → Nat) = fun _ => 0 := funext fun a => by fin_cases a; rfl

/-- The printed index maps, decided over the 50 points: the two row-blocked inputs move with the output along the
    rows and sit at column block 0; the weights and biases stay at block 0. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (1 : Fin 2) = 0 :=
  (by decide +kernel : ∀ t : Fin grid0.N, _)

/-- Every row block of the result is some point's. -/
theorem idx_onto : ∀ q0 : Fin 50, ∃ t : Fin cfg0.N, win0_6.index t = ![q0.val, 0] :=
  (by decide +kernel : ∀ q0 : Fin 50, ∃ t : Fin grid0.N, win0_6.index t = ![q0.val, 0])

/-- An index of the result is in point `t`'s block iff each coordinate is in the block's range on its axis. -/
theorem mem_blk (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v16).slice (win0_6.rect t)).set ↔ _
  rw [View.set_slice_whole, Rect.mem_set_unit]
  exact Iff.rfl

/-- The 50 blocks tile the result. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 128 ≤ (i 1).val ∧ (i 1).val < win0_6.index t (1 : Fin 2) * 128 + 128
    omega

end Gin.Blocks

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.DenseRead.lean ====
import proofs.«149185_j19731079758624_1_alg».proof.Proof.LibDotIdx
import Idealize.ShloMosaic.Lib.ValueLayout
import Idealize.ShloMosaic.Lib.Pipeline.Value

/-!
# A dense layer as a kernel body spells it, read at an index

`X · W + b` with `X : [m, k]`, `W : [k, n]` and a bias vector `b : [n]`: the body multiplies into a zero
accumulator, lays the bias out as one row `[1, n]` and repeats that row down the `m` rows.  Read at `(p, q)`
this is `∑ c, X (p, c) · W (c, q) + b q` on the extended reals.
-/

noncomputable section

namespace Gin

open Idealize.ShloMosaic Idealize.ShloMosaic.ValueIdx

variable {m k n : ℕ} {φ₁ φ₂ : FTy}

/-- A bias vector laid out as one row and repeated down `m` rows reads, at `(p, q)`, the vector at `q`. -/
theorem biasRows_apply {α : Type} (b : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (p : Fin m) (q : Fin n) :
    broadcastTo ⟨2, ![m, n]⟩ (shapeCast ⟨2, ![1, n]⟩ b h1) h2 (ix2 p q) = b (ix1 q) :=
  (broadcastTo_1b_ab_apply _ h2 p q).trans (shapeCast_a_1a_apply b h1 0 q)

/-- The dense layer read at `(p, q)`. -/
theorem dense_apply
    (w : DotDims.WF ⟨2, ![m, k]⟩ ⟨2, ![k, n]⟩ ⟨2, ![m, n]⟩ [1] [0] [0] [1] [] [])
    (prec : Option ContractPrecision) (X : FVec Ideal ⟨2, ![m, k]⟩ φ₁) (W : FVec Ideal ⟨2, ![k, n]⟩ φ₂)
    (b : FVec Ideal ⟨1, ![n]⟩ .f32)
    (h1 : (⟨1, ![n]⟩ : Shape).ShapeCasts ⟨2, ![1, n]⟩) (h2 : (⟨2, ![1, n]⟩ : Shape).Broadcasts ⟨2, ![m, n]⟩)
    (p : Fin m) (q : Fin n) :
    addf (matmul (⟨[1], [0], [0], [1], [], [], w⟩ : DotDims _ _ _) prec X W
        (constant ⟨2, ![m, n]⟩ .f32 0x00000000#32))
      (broadcastTo ⟨2, ![m, n]⟩ (shapeCast ⟨2, ![1, n]⟩ b h1) h2) (ix2 p q)
      = (∑ c : Fin k, X (ix2 p c) * W (ix2 c q)) + b (ix1 q) :=
  congrArg₂ (· + ·) (DotIdx.matmul_plain_zero_apply w prec X W p q) (biasRows_apply b h1 h2 p q)

end Gin

end
-- ==== Proof.Perceptron.lean ====
import Idealize.ShloMosaic.PureOps.Ideal
import Idealize.ShloMosaic.Lib.ValueIdx

/-!
# One node's update: a two-layer perceptron of its own features plus its neighbours' sum

For a node with feature row `x` and aggregated neighbour row `a` (both of length 128) the update is

  `out q = ∑ c, max (∑ i, (1·x i + a i) · W1 i c + b1 c) 0 · W2 c q + b2 q`

on the extended reals.  The two float words `1.0` and `0.0` are kept as the words they are: both programs
carry the same words in the same places, so they are never evaluated.  A row of the result depends on the
two input arrays only through the same row: this is what lets a block of rows be computed on its own.
-/

noncomputable section

namespace Gin

open Idealize.ShloMosaic Idealize.ShloMosaic.ValueIdx

/-- The float word of `1.0`, read exactly. -/
abbrev oneW : EReal := Ideal.ofBits .f32 0x3F800000#32
/-- The float word of `0.0`, read exactly. -/
abbrev zeroW : EReal := Ideal.ofBits .f32 0x00000000#32

/-- One node's update at output coordinate `q`: the rectified first layer of `1·x + a`, then the second layer. -/
def node (x a : Fin 128 → EReal) (W1 : Fin 128 → Fin 128 → EReal) (b1 : Fin 128 → EReal)
    (W2 : Fin 128 → Fin 128 → EReal) (b2 : Fin 128 → EReal) (q : Fin 128) : EReal :=
  (∑ c : Fin 128, max ((∑ i : Fin 128, (oneW * x i + a i) * W1 i c) + b1 c) zeroW * W2 c q) + b2 q

/-- The update of `R` nodes at once: entry `(r, q)` is node `r`'s update at `q`, from row `r` of the features
    `X` and row `r` of the aggregate `A`. -/
def layer {R : ℕ} (X A : (⟨2, ![R, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![R, 128]⟩ : Shape).Idx → EReal :=
  fun j => node (fun i => X (ix2 (j 0) i)) (fun i => A (ix2 (j 0) i)) (fun i c => W1 (ix2 i c)) (fun c => b1 (ix1 c))
    (fun c q => W2 (ix2 c q)) (fun q => b2 (ix1 q)) (j 1)

/-- The layer read at `(r, q)`. -/
theorem layer_ix2 {R : ℕ} (X A : (⟨2, ![R, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (r : Fin R) (q : Fin 128) :
    layer X A W1 b1 W2 b2 (ix2 r q)
      = node (fun i => X (ix2 r i)) (fun i => A (ix2 r i)) (fun i c => W1 (ix2 i c)) (fun c => b1 (ix1 c))
          (fun c q => W2 (ix2 c q)) (fun q => b2 (ix1 q)) q := rfl

end Gin

end
-- ==== Proof.BodyRead.lean ====
import proofs.«149185_j19731079758624_1_alg».proof.Proof.Gen.KernelIdeal.Skeleton
import proofs.«149185_j19731079758624_1_alg».proof.Proof.DenseRead
import proofs.«149185_j19731079758624_1_alg».proof.Proof.Perceptron

/-!
# The kernel body computes the nodes of its block

The body's one store holds, at `(p, q)` of a block of 2000 rows, node `p`'s update at `q`: from row `p` of the
feature block and row `p` of the aggregate block, the two weight matrices and the two bias vectors.  The two
narrowings to a 16-bit format are the identity on the extended reals; the same-shape casts are the identity.
-/

noncomputable section

namespace Gin.Body

open Cert.KernelIdeal Cert.KernelIdeal.Gen Idealize.ShloMosaic Idealize.ShloMosaic.ValueIdx

/-- THE BODY'S PAYLOAD at `(p, q)` is node `p`'s update at `q`. -/
theorem payload_at (v0 v1 : Vec Ideal S2000x128 .f32) (v7 : Vec Ideal S128x128 .bf16) (v10 : Vec Ideal S128 .f32)
    (v17 : Vec Ideal S128x128 .bf16) (v20 : Vec Ideal S128 .f32) (p : Fin 2000) (q : Fin 128) :
    k0_pay1 (F := Ideal) v0 v1 v7 v10 v17 v20 (ix2 p q)
      = Gin.node (fun i => v0 (ix2 p i)) (fun i => v1 (ix2 p i)) (fun i c => v7 (ix2 i c)) (fun c => v10 (ix1 c))
          (fun c q => v17 (ix2 c q)) (fun q => v20 (ix1 q)) q := by
  unfold k0_pay1 Gin.node
  refine (Gin.dense_apply _ none _ _ v20 _ _ p q).trans ?_
  refine congrArg₂ (· + ·) (Finset.sum_congr rfl fun c _ => congrArg₂ (· * ·) ?_ ?_) rfl
  · -- the rectified first layer at (p, c)
    refine congrArg (max · zeroW) ?_
    refine (Gin.dense_apply _ none _ _ v10 _ _ p c).trans ?_
    refine congrArg₂ (· + ·) (Finset.sum_congr rfl fun i _ => congrArg₂ (· * ·) ?_ ?_) rfl
    · -- the first layer's input at (p, i)
      show oneW * v0 (ix2 p i) + shapeCast S2000x128 v1 shapeCasts_S2000x128_S2000x128 (ix2 p i) = _
      rw [shapeCast_self]
    · show shapeCast S128x128 v7 shapeCasts_S128x128_S128x128 (ix2 i c) = _
      rw [shapeCast_self]
  · show shapeCast S128x128 v17 shapeCasts_S128x128_S128x128 (ix2 c q) = _
    rw [shapeCast_self]

end Gin.Body

end
-- ==== Proof.BlockPoint.lean ====
import proofs.«149185_j19731079758624_1_alg».proof.Proof.BlockIndex
import proofs.«149185_j19731079758624_1_alg».proof.Proof.BodyRead

/-!
# One block of rows, for any arrays

For ANY feature array `X`, aggregate array `A`, weights `W1`, `W2` and biases `B1`, `B2`: what the body leaves at
point `t`, computed from the blocks of those arrays at `t`, is block `t` of the layer `Gin.layer X A W1 B1 W2 B2`.
Row `p` of the feature block and of the aggregate block is row `2000·t + p` of the arrays, the weights' and
biases' blocks are the arrays themselves, and a node's update reads the row-blocked arrays only along its own row.
The arrays are variables here on purpose: nothing about where they come from is used.
-/

set_option maxRecDepth 16384

noncomputable section

namespace Gin.Blocks

open Cert.KernelIdeal Cert.KernelIdeal.Gen Idealize.ShloMosaic Idealize.ShloMosaic.TcCoe Idealize.SL.Sem
open Idealize.ShloMosaic.ValueIdx

/-- A node-by-feature array, a weight matrix as the kernel stages it, and a bias vector. -/
abbrev ArrF : Type := (⟨S100000x128, .f32⟩ : BufTy).Contents (Elt Ideal)
abbrev ArrW : Type := (⟨S128x128, .bf16⟩ : BufTy).Contents (Elt Ideal)
abbrev ArrB : Type := (⟨S128, .f32⟩ : BufTy).Contents (Elt Ideal)

/-- Two nodes' updates agree when all their data agree. -/
theorem node_congr {x x' a a' : Fin 128 → EReal} {W1 W1' : Fin 128 → Fin 128 → EReal} {b1 b1' : Fin 128 → EReal}
    {W2 W2' : Fin 128 → Fin 128 → EReal} {b2 b2' : Fin 128 → EReal} {q q' : Fin 128}
    (hx : x = x') (ha : a = a') (hW1 : W1 = W1') (hb1 : b1 = b1') (hW2 : W2 = W2') (hb2 : b2 = b2') (hq : q = q') :
    Gin.node x a W1 b1 W2 b2 q = Gin.node x' a' W1' b1' W2' b2' q' := by
  subst hx ha hW1 hb1 hW2 hb2 hq; rfl

/-- Two layers agree when all their arrays agree. -/
theorem layer_congr {R : ℕ} {X X' A A' : (⟨2, ![R, 128]⟩ : Shape).Idx → EReal}
    {W1 W1' W2 W2' : (⟨2, ![128, 128]⟩ : Shape).Idx → EReal} {b1 b1' b2 b2' : (⟨1, ![128]⟩ : Shape).Idx → EReal}
    (hX : X = X') (hA : A = A') (hW1 : W1 = W1') (hb1 : b1 = b1') (hW2 : W2 = W2') (hb2 : b2 = b2') :
    Gin.layer X A W1 b1 W2 b2 = Gin.layer X' A' W1' b1' W2' b2' := by
  subst hX hA hW1 hb1 hW2 hb2; rfl

/-- Row `p` of the first row-blocked window's block at point `t` is the array's row at the block's place. -/
theorem rows0_read (X : ArrF) (t : Fin cfg0.N) (p : Fin 2000) (q i : Fin 128) :
    ((cfg0.win 0).blk t).view.read (Elt Ideal) X (ix2 p i)
      = X (ix2 ((((cfg0.win 6).blk t).view.emb (ix2 p q)) 0) i) := by
  obtain ⟨e00, e01, -⟩ := idx_facts t
  show X (((cfg0.win 0).blk t).view.emb (ix2 p i)) = _
  refine congrArg X (funext fun a => Fin.ext ?_)
  match a with
  | ⟨0, _⟩ =>
    show win0_0.index t (0 : Fin 2) * 2000 + 1 * p.val = win0_6.index t (0 : Fin 2) * 2000 + 1 * p.val
    omega
  | ⟨1, _⟩ =>
    show win0_0.index t (1 : Fin 2) * 128 + 1 * i.val = i.val
    omega

/-- The same for the second row-blocked window. -/
theorem rows1_read (A : ArrF) (t : Fin cfg0.N) (p : Fin 2000) (q i : Fin 128) :
    ((cfg0.win 1).blk t).view.read (Elt Ideal) A (ix2 p i)
      = A (ix2 ((((cfg0.win 6).blk t).view.emb (ix2 p q)) 0) i) := by
  obtain ⟨-, -, e10, e11, -⟩ := idx_facts t
  show A (((cfg0.win 1).blk t).view.emb (ix2 p i)) = _
  refine congrArg A (funext fun a => Fin.ext ?_)
  match a with
  | ⟨0, _⟩ =>
    show win0_1.index t (0 : Fin 2) * 2000 + 1 * p.val = win0_6.index t (0 : Fin 2) * 2000 + 1 * p.val
    omega
  | ⟨1, _⟩ =>
    show win0_1.index t (1 : Fin 2) * 128 + 1 * i.val = i.val
    omega

/-- The first weight matrix's block is the matrix. -/
theorem w1_read (W : ArrW) (t : Fin cfg0.N) (i k : Fin 128) :
    ((cfg0.win 2).blk t).view.read (Elt Ideal) W (ix2 i k) = W (ix2 i k) := by
  obtain ⟨-, -, -, -, e20, e21, -⟩ := idx_facts t
  show W (((cfg0.win 2).blk t).view.emb (ix2 i k)) = _
  refine congrArg W (funext fun a => Fin.ext ?_)
  match a with
  | ⟨0, _⟩ => show win0_2.index t (0 : Fin 2) * 128 + 1 * i.val = i.val; omega
  | ⟨1, _⟩ => show win0_2.index t (1 : Fin 2) * 128 + 1 * k.val = k.val; omega

/-- The first bias vector's block is the vector. -/
theorem b1_read (B : ArrB) (t : Fin cfg0.N) (k : Fin 128) :
    ((cfg0.win 3).blk t).view.read (Elt Ideal) B (ix1 k) = B (ix1 k) := by
  obtain ⟨-, -, -, -, -, -, e30, -⟩ := idx_facts t
  show B (((cfg0.win 3).blk t).view.emb (ix1 k)) = _
  refine congrArg B (funext fun a => Fin.ext ?_)
  match a with
  | ⟨0, _⟩ => show win0_3.index t (0 : Fin 1) * 128 + 1 * k.val = k.val; omega

/-- The second weight matrix's block is the matrix. -/
theorem w2_read (W : ArrW) (t : Fin cfg0.N) (k j : Fin 128) :
    ((cfg0.win 4).blk t).view.read (Elt Ideal) W (ix2 k j) = W (ix2 k j) := by
  obtain ⟨-, -, -, -, -, -, -, e40, e41, -⟩ := idx_facts t
  show W (((cfg0.win 4).blk t).view.emb (ix2 k j)) = _
  refine congrArg W (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega

/-- The second bias vector's block is the vector. -/
theorem b2_read (B : ArrB) (t : Fin cfg0.N) (j : Fin 128) :
    ((cfg0.win 5).blk t).view.read (Elt Ideal) B (ix1 j) = B (ix1 j) := by
  obtain ⟨-, -, -, -, -, -, -, -, -, e50, -⟩ := idx_facts t
  show B (((cfg0.win 5).blk t).view.emb (ix1 j)) = _
  refine congrArg B (funext fun a => Fin.ext ?_)
  match a with
  | ⟨0, _⟩ => show win0_5.index t (0 : Fin 1) * 128 + 1 * j.val = j.val; omega

/-- The column of `(p, q)` in the array is `q`. -/
theorem col_at (t : Fin cfg0.N) (p : Fin 2000) (q : Fin 128) :
    q = (((cfg0.win 6).blk t).view.emb (ix2 p q)) 1 := by
  obtain ⟨-, -, -, -, -, -, -, -, -, -, e61⟩ := idx_facts t
  refine Fin.ext ?_
  show q.val = win0_6.index t (1 : Fin 2) * 128 + 1 * q.val
  omega

/-- What the body computes at `(p, q)` from the blocks at point `t` is the layer at that entry's place in the array. -/
theorem point_eq (X A : ArrF) (W1 : ArrW) (B1 : ArrB) (W2 : ArrW) (B2 : ArrB) (t : Fin cfg0.N)
    (p : Fin 2000) (q : Fin 128) :
    k0_pay1 (F := Ideal) (((cfg0.win 0).blk t).view.read (Elt Ideal) X) (((cfg0.win 1).blk t).view.read (Elt Ideal) A)
        (((cfg0.win 2).blk t).view.read (Elt Ideal) W1) (((cfg0.win 3).blk t).view.read (Elt Ideal) B1)
        (((cfg0.win 4).blk t).view.read (Elt Ideal) W2) (((cfg0.win 5).blk t).view.read (Elt Ideal) B2) (ix2 p q)
      = Gin.layer (R := 100000) X A W1 B1 W2 B2 (((cfg0.win 6).blk t).view.emb (ix2 p q)) := by
  refine (Gin.Body.payload_at _ _ _ _ _ _ p q).trans ?_
  unfold Gin.layer
  exact node_congr (funext fun i => rows0_read X t p q i) (funext fun i => rows1_read A t p q i)
    (funext fun i => funext fun k => w1_read W1 t i k) (funext fun k => b1_read B1 t k)
    (funext fun k => funext fun j => w2_read W2 t k j) (funext fun j => b2_read B2 t j) (col_at t p q)

/-- The same at any index of the block. -/
theorem point_eq' (X A : ArrF) (W1 : ArrW) (B1 : ArrB) (W2 : ArrW) (B2 : ArrB) (t : Fin cfg0.N) (y : S2000x128.Idx) :
    k0_pay1 (F := Ideal) (((cfg0.win 0).blk t).view.read (Elt Ideal) X) (((cfg0.win 1).blk t).view.read (Elt Ideal) A)
        (((cfg0.win 2).blk t).view.read (Elt Ideal) W1) (((cfg0.win 3).blk t).view.read (Elt Ideal) B1)
        (((cfg0.win 4).blk t).view.read (Elt Ideal) W2) (((cfg0.win 5).blk t).view.read (Elt Ideal) B2) y
      = Gin.layer (R := 100000) X A W1 B1 W2 B2 (((cfg0.win 6).blk t).view.emb y) := by
  obtain ⟨p, q, rfl⟩ : ∃ (p : Fin 2000) (q : Fin 128), y = ix2 p q := ⟨y 0, y 1, eq_ix2 y⟩
  exact point_eq X A W1 B1 W2 B2 t p q

/-- WHAT THE BODY LEAVES AT POINT `t`, read through the result's window, is block `t` of the layer. -/
theorem block_eq (X A : ArrF) (W1 : ArrW) (B1 : ArrB) (W2 : ArrW) (B2 : ArrB) (t : Fin cfg0.N) :
    (cfg0.win 6).cut (grid0.coords t)
        (out0_6 (F := Ideal) (((cfg0.win 0).blk t).view.read (Elt Ideal) X) (((cfg0.win 1).blk t).view.read (Elt Ideal) A)
          (((cfg0.win 2).blk t).view.read (Elt Ideal) W1) (((cfg0.win 3).blk t).view.read (Elt Ideal) B1)
          (((cfg0.win 4).blk t).view.read (Elt Ideal) W2) (((cfg0.win 5).blk t).view.read (Elt Ideal) B2))
      = ((cfg0.win 6).blk t).view.read (Elt Ideal) (Gin.layer (R := 100000) X A W1 B1 W2 B2) := by
  unfold out0_6
  rw [View.canon_unit_zero zeros2]
  simp only [View.ld_unit_zero (S := S2000x128) zeros2, View.ld_unit_zero (S := S128x128) zeros2,
    View.ld_unit_zero (S := S128) zeros1]
  funext y
  exact point_eq' X A W1 B1 W2 B2 t y

end Gin.Blocks

end
-- ==== Proof.Weights.lean ====
import proofs.«149185_j19731079758624_1_alg».proof.Proof.Gen.KernelIdeal.Frame
import Idealize.ShloMosaic.Lib.StableHlo.Run
import Idealize.ShloMosaic.PureOps.Ideal

/-!
# The weights as the region finds them

Before the region each weight matrix is narrowed to a 16-bit format.  On the extended reals a change of format
is the identity, so the region finds the matrices the program was launched with.
-/

noncomputable section

namespace Gin.Weights

open Cert.KernelIdeal Cert.KernelIdeal.Gen Idealize.ShloMosaic Idealize.ShloMosaic.TcCoe Idealize.SL.Sem

variable (m : (ℓ : Loc nD τ sig) → Buf (Elt Ideal) ℓ)

/-- The first weight matrix as the region finds it is the argument. -/
theorem entry_w1 (c : Dev nD) : (V m c main_v14 : S128x128.Idx → EReal) = m ((c : Thread nD τ).loc main_arg2) := by
  dsimp only [Gen.V, Gen.hostOps0]; after_results; rfl

/-- The second weight matrix as the region finds it is the argument. -/
theorem entry_w2 (c : Dev nD) : (V m c main_v15 : S128x128.Idx → EReal) = m ((c : Thread nD τ).loc main_arg4) := by
  dsimp only [Gen.V, Gen.hostOps0]; after_results; rfl

end Gin.Weights

end
-- ==== Proof.Blocks.lean ====
import proofs.«149185_j19731079758624_1_alg».proof.Proof.Gen.KernelIdeal.Value
import proofs.«149185_j19731079758624_1_alg».proof.Proof.BlockPoint
import proofs.«149185_j19731079758624_1_alg».proof.Proof.Weights

/-!
# From the blocks to the array

What point `t` writes back is block `t` of the layer over all 100000 nodes, of the arrays as the region finds them
(the block equation for any arrays, at those arrays); the 50 blocks tile the result, so the result array ends
holding that layer.  Of the arrays the region finds, the features and the biases are arguments no operation
wrote, the weights are the arguments narrowed (the identity on the extended reals), and the aggregate is kept as
the array it is.
-/

noncomputable section

namespace Gin.Blocks

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The layer over all nodes, of the arrays as the region finds them: the features, the aggregate, and the
    weights and biases. -/
def nodes (c : Dev nD) : ArrF :=
  Gin.layer (R := 100000) (V m c main_arg0) (V m c main_v13) (V m c main_v14) (V m c main_arg3) (V m c main_v15)
    (V m c main_arg5)

/-- WHAT POINT `t` WRITES BACK is block `t` of the layer over all nodes. -/
theorem flushed_eq (c : Dev nD) (t : Fin cfg0.N) :
    (dats m 0 c).flushed 6 t = ((cfg0.win 6).blk t).view.read (Elt Ideal) (nodes m c) :=
  (Cert.KernelIdeal.Value.flushed6 m c t).trans
    (block_eq (V m c main_arg0) (V m c main_v13) (V m c main_v14) (V m c main_arg3) (V m c main_v15)
      (V m c main_arg5) t)

/-- THE RESULT ARRAY after the run is the layer over all nodes. -/
theorem final (c : Dev nD) : (dats m 0 c).arrAt 6 cfg0.N = nodes m c :=
  (dats m 0 c).arrAt_eq_of_cover 6 (nodes m c) (fun t _ => flushed_eq m c t) covered

/-- The layer over all nodes, of the arguments as launched and the aggregate as the region finds it. -/
theorem nodes_eq (c : Dev nD) :
    nodes m c = Gin.layer (R := 100000) (m ((c : Thread nD τ).loc main_arg0)) (V m c main_v13)
      (m ((c : Thread nD τ).loc main_arg2)) (m ((c : Thread nD τ).loc main_arg3))
      (m ((c : Thread nD τ).loc main_arg4)) (m ((c : Thread nD τ).loc main_arg5)) :=
  layer_congr (V_main_arg0 m c) rfl (Gin.Weights.entry_w1 m c) (V_main_arg3 m c) (Gin.Weights.entry_w2 m c)
    (V_main_arg5 m c)

/-- THE RUN: the result ends at the layer over all nodes, the arguments unchanged. -/
theorem run : θ_run defs (onTc (τ := τ) (main (F := Ideal))) ⟨m, fun _ => 0, ρ⟩ fun r => ∀ c : Dev nD,
      r.2.mem ((c : Thread nD τ).loc main_v16)
        = Gin.layer (R := 100000) (m ((c : Thread nD τ).loc main_arg0)) (V m c main_v13)
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (nodes_eq m c)), (h c).2⟩)
    (Cert.KernelIdeal.Value.run_blocks m ρ)

end Gin.Blocks

end
-- ==== Proof.Aggregate.lean ====
import proofs.«149185_j19731079758624_1_alg».proof.Proof.Gen.KernelIdeal.Frame
import proofs.«149185_j19731079758624_1_alg».proof.Proof.Gen.ReferenceIdeal.Read
import Idealize.ShloMosaic.Lib.StableHlo.Run

/-!
# The aggregate is the same array in both programs

Before its one region the kernel's program computes the neighbour aggregate exactly as the reference does: the
source row of every edge is gathered and the gathered rows are added up at the edges' destinations.  Both
programs apply the same chain of operations to the same two arguments, so the array the region finds is the
reference's aggregate stage; the chain itself is never opened.
-/

noncomputable section

namespace Gin.Aggregate

open Cert.KernelIdeal Cert.KernelIdeal.Gen Idealize.ShloMosaic Idealize.ShloMosaic.TcCoe Idealize.SL.Sem

variable (m : (ℓ : Loc nD τ sig) → Buf (Elt Ideal) ℓ)

/-- The aggregate as the region finds it is the reference's aggregate stage of the features and the edge list. -/
theorem entry_agg (c : Dev nD) :
    (V m c main_v13 : S100000x128.Idx → EReal)
      = Cert.ReferenceIdeal.Read.val_main_v13 (F := Ideal) (m ((c : Thread nD τ).loc main_arg0))
          (m ((c : Thread nD τ).loc main_arg1)) := by
  dsimp only [Gen.V, Gen.hostOps0]; after_results; rfl

end Gin.Aggregate

end
-- ==== Proof.RefLayer.lean ====
import proofs.«149185_j19731079758624_1_alg».proof.Proof.Gen.ReferenceIdeal.Read
import proofs.«149185_j19731079758624_1_alg».proof.Proof.Perceptron

/-!
# The reference computes the layer

Read one operation at a time, the reference's result at `(r, q)` is node `r`'s update at `q`: the row
`1·x r + agg r` against `W1` plus `b1`, rectified, against `W2` plus `b2`.  The aggregate `agg` (a gather of the
source rows added up at their destinations) is never opened: it enters only as the array it is.
-/

noncomputable section

namespace Gin.Ref

open Cert.ReferenceIdeal Cert.ReferenceIdeal.Read Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The input of the first layer at `(r, i)`: the node's own feature times the word `1.0`, plus the aggregate. -/
theorem hidden_at (r : Fin 100000) (i : Fin 128) :
    val_main_v16 (F := Ideal) x0 x1 (ix2 r i) = oneW * x0 (ix2 r i) + val_main_v13 (F := Ideal) x0 x1 (ix2 r i) := by
  rw [val_main_v16_apply, val_main_v15_apply, val_main_v14_apply, val_main_cst_1_apply]
  rfl

/-- The first product at `(r, c)`. -/
theorem dot1_at (r : Fin 100000) (c : Fin 128) :
    val_main_v17 (F := Ideal) x0 x1 x2 (ix2 r c) = ∑ i : Fin 128, val_main_v16 (F := Ideal) x0 x1 (ix2 r i) * x2 (ix2 i c) := by
  refine (val_main_v17_apply x0 x1 x2 (ix2 r c)).trans (Finset.sum_congr rfl fun i _ => ?_)
  rw [show lidx_main_v17 (ix2 r c) i = ix2 r i from
        funext fun a => Fin.ext (by match a with | ⟨0, _⟩ => rfl | ⟨1, _⟩ => rfl),
      show ridx_main_v17 (ix2 r c) i = ix2 i c from
        funext fun a => Fin.ext (by match a with | ⟨0, _⟩ => rfl | ⟨1, _⟩ => rfl)]

/-- The first bias laid along every row, at `(r, c)`. -/
theorem bias1_at (r : Fin 100000) (c : Fin 128) : val_main_v19 (F := Ideal) x3 (ix2 r c) = x3 (ix1 c) := by
  rw [val_main_v19_apply, val_main_v18_apply]
  exact congrArg x3 (funext fun a => Fin.ext (by match a with | ⟨0, _⟩ => rfl))

/-- The rectified first layer at `(r, c)`. -/
theorem rect_at (r : Fin 100000) (c : Fin 128) :
    val_main_v21 (F := Ideal) x0 x1 x2 x3 (ix2 r c)
      = max (val_main_v17 (F := Ideal) x0 x1 x2 (ix2 r c) + x3 (ix1 c)) zeroW := by
  rw [val_main_v21_apply, val_main_v20_apply, bias1_at, val_main_call0_v0_apply, val_main_call0_cst_apply]
  rfl

/-- The second product at `(r, q)`. -/
theorem dot2_at (r : Fin 100000) (q : Fin 128) :
    val_main_v22 (F := Ideal) x0 x1 x2 x3 x4 (ix2 r q)
      = ∑ c : Fin 128, val_main_v21 (F := Ideal) x0 x1 x2 x3 (ix2 r c) * x4 (ix2 c q) := by
  refine (val_main_v22_apply x0 x1 x2 x3 x4 (ix2 r q)).trans (Finset.sum_congr rfl fun c _ => ?_)
  rw [show lidx_main_v22 (ix2 r q) c = ix2 r c from
        funext fun a => Fin.ext (by match a with | ⟨0, _⟩ => rfl | ⟨1, _⟩ => rfl),
      show ridx_main_v22 (ix2 r q) c = ix2 c q from
        funext fun a => Fin.ext (by match a with | ⟨0, _⟩ => rfl | ⟨1, _⟩ => rfl)]

/-- The second bias laid along every row, at `(r, q)`. -/
theorem bias2_at (r : Fin 100000) (q : Fin 128) : val_main_v24 (F := Ideal) x5 (ix2 r q) = x5 (ix1 q) := by
  rw [val_main_v24_apply, val_main_v23_apply]
  exact congrArg x5 (funext fun a => Fin.ext (by match a with | ⟨0, _⟩ => rfl))

/-- THE REFERENCE'S RESULT is the layer of the features and the aggregate. -/
theorem result_eq_layer :
    val_main_v25 (F := Ideal) x0 x1 x2 x3 x4 x5
      = Gin.layer (R := 100000) x0 (val_main_v13 (F := Ideal) x0 x1) x2 x3 x4 x5 := by
  funext j
  obtain ⟨r, q, rfl⟩ : ∃ (r : Fin 100000) (q : Fin 128), j = ix2 r q := ⟨j 0, j 1, eq_ix2 j⟩
  rw [Gin.layer_ix2, val_main_v25_apply, dot2_at, bias2_at]
  unfold Gin.node
  simp only [rect_at, dot1_at, hidden_at]
  rfl

end Gin.Ref

end
-- ==== Proof.lean ====
/-
  A graph-isomorphism-network layer over 100000 nodes with 128 features and 1600000 edges: every node's new row is a
  two-layer perceptron of its own row plus the sum of its in-neighbours' rows,

    out r q = ∑ c, max (∑ i, (1·x r i + agg r i) · W1 i c + b1 c) 0 · W2 c q + b2 q,
    agg r   = the sum, over the edges that end at r, of the row of the edge's source.

  Both programs compute `agg` by the same gather of the source rows and the same scatter-add at the destinations,
  applied to the same two arguments; that chain is carried as one array and never opened (Proof/Aggregate.lean).
  The kernel then computes the perceptron in 50 blocks of 2000 rows, narrowing the hidden values and the weights to
  a 16-bit format before each matrix product; the reference computes it for all rows at once.  On the extended
  reals a format change is the identity, a matrix product into a zero accumulator is the plain sum of products,
  and a node's row depends on the row-blocked arrays only through that node's own row; so each block the kernel
  writes is that block of the one layer (Proof/BodyRead.lean, Proof/BlockPoint.lean), the blocks tile the result
  (Proof/BlockIndex.lean, Proof/Blocks.lean; the narrowed weights the region finds are the arguments,
  Proof/Weights.lean), and the reference's result, read one operation at a time, is the same layer
  (Proof/RefLayer.lean).  The two sides are the same formula index by index: no algebraic law is needed, and the
  precondition is never opened.
  The three frames are the generated ones (the reference's is its generated run with the result dropped); the
  idealization rewrote nothing, so `preserves` is `True`.
-/
import proofs.«149185_j19731079758624_1_alg».proof.Defs
import proofs.«149185_j19731079758624_1_alg».proof.Proof.Gen.Kernel
import proofs.«149185_j19731079758624_1_alg».proof.Proof.Gen.Kernel.Skeleton
import proofs.«149185_j19731079758624_1_alg».proof.Proof.Gen.Kernel.Launch
import proofs.«149185_j19731079758624_1_alg».proof.Proof.Gen.Kernel.Points
import proofs.«149185_j19731079758624_1_alg».proof.Proof.Gen.Kernel.Frame
import proofs.«149185_j19731079758624_1_alg».proof.Proof.Gen.KernelIdeal
import proofs.«149185_j19731079758624_1_alg».proof.Proof.Gen.KernelIdeal.Skeleton
import proofs.«149185_j19731079758624_1_alg».proof.Proof.Gen.KernelIdeal.Launch
import proofs.«149185_j19731079758624_1_alg».proof.Proof.Gen.KernelIdeal.Points
import proofs.«149185_j19731079758624_1_alg».proof.Proof.Gen.KernelIdeal.Frame
import proofs.«149185_j19731079758624_1_alg».proof.Proof.Gen.KernelIdeal.Value
import proofs.«149185_j19731079758624_1_alg».proof.Proof.Gen.ReferenceIdeal
import proofs.«149185_j19731079758624_1_alg».proof.Proof.Gen.ReferenceIdeal.Run
import proofs.«149185_j19731079758624_1_alg».proof.Proof.Gen.ReferenceIdeal.Read
import proofs.«149185_j19731079758624_1_alg».proof.Proof.Gen.Pre_finite_inputs
import proofs.«149185_j19731079758624_1_alg».proof.Proof.Blocks
import proofs.«149185_j19731079758624_1_alg».proof.Proof.Aggregate
import proofs.«149185_j19731079758624_1_alg».proof.Proof.RefLayer
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both results are the layer of the features, the shared aggregate, the weights and the biases. -/
theorem algebraic : Cert.algebraic_KernelIdeal_ReferenceIdeal := by
  intro m ρ m' ρ' _ hagree
  refine ⟨fun c => Gin.layer (R := 100000) (m ((c : Thread Cert.KernelIdeal.nD Cert.KernelIdeal.τ).loc Cert.KernelIdeal.main_arg0))
      (Cert.ReferenceIdeal.Read.val_main_v13 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1)))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩) (Gin.Blocks.run m ρ)
    exact Gin.Blocks.layer_congr rfl (Gin.Aggregate.entry_agg m c) rfl rfl rfl rfl
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v25_eq, Gin.Ref.result_eq_layer, e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
